-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S3x1024x1024 : Shape := ⟨3, ![3, 1024, 1024]⟩
abbrev S3x1024 : Shape := ⟨2, ![3, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S3x1024x1024 : S_.BroadcastsInDim S3x1024x1024 (![] : Fin 0 → Fin S3x1024x1024.rank)
  reducesTo_S3x1024x1024_S_d0_1_2 : S3x1024x1024.ReducesTo [0, 1, 2] S_
  bcast_S_S3x1024 : S_.BroadcastsInDim S3x1024 (![] : Fin 0 → Fin S3x1024.rank)
  reducesTo_S3x1024_S_d0_1 : S3x1024.ReducesTo [0, 1] S_

variable [Facts]

def fn_part1 {F : FTy → Type} [FloatOps F] (main_arg4 : FVec F S3x1024 .f32) (main_v13 : IVec S_ 1) (main_v16 : IVec S3x1024x1024 1) : IVec S_ 1 :=
  let main_c_5 : IVec S_ 1 := constantI S_ 1 1#1
  let main_v17 : IVec S_ 1 := (fun x v => Host.reduce IntOp.andi x v reducesTo_S3x1024x1024_S_d0_1_2 h_S_) main_v16 main_c_5
  let main_v18 : IVec S_ 1 := andi main_v13 main_v17
  let main_v19 : FVec F S3x1024 .f32 := Host.absf main_arg4
  let main_cst_6 : FVec F S_ .f32 := constant S_ .f32 0x7F800000#32
  let main_v20 : FVec F S3x1024 .f32 := broadcastInDim S3x1024 ![] bcast_S_S3x1024 main_cst_6
  let main_v21 : IVec S3x1024 1 := cmpf .olt main_v19 main_v20
  let main_c_7 : IVec S_ 1 := constantI S_ 1 1#1
  let main_v22 : IVec S_ 1 := (fun x v => Host.reduce IntOp.andi x v reducesTo_S3x1024_S_d0_1 h_S_) main_v21 main_c_7
  let main_v23 : IVec S_ 1 := andi main_v18 main_v22
  main_v23

def fn {F : FTy → Type} [FloatOps F] (main_arg0 : FVec F S16384x1024 .f32) (main_arg1 : FVec F S16384x1024 .f32) (main_arg2 : FVec F S3x1024x1024 .f32) (main_arg3 : FVec F S3x1024x1024 .f32) (main_arg4 : FVec F S3x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S3x1024x1024 .f32 := Host.absf main_arg2
  let main_cst_2 : FVec F S_ .f32 := constant S_ .f32 0x7F800000#32
  let main_v10 : FVec F S3x1024x1024 .f32 := broadcastInDim S3x1024x1024 ![] bcast_S_S3x1024x1024 main_cst_2
  let main_v11 : IVec S3x1024x1024 1 := cmpf .olt main_v9 main_v10
  let main_c_3 : IVec S_ 1 := constantI S_ 1 1#1
  let main_v12 : IVec S_ 1 := (fun x v => Host.reduce IntOp.andi x v reducesTo_S3x1024x1024_S_d0_1_2 h_S_) main_v11 main_c_3
  let main_v13 : IVec S_ 1 := andi main_v8 main_v12
  let main_v14 : FVec F S3x1024x1024 .f32 := Host.absf main_arg3
  let main_cst_4 : FVec F S_ .f32 := constant S_ .f32 0x7F800000#32
  let main_v15 : FVec F S3x1024x1024 .f32 := broadcastInDim S3x1024x1024 ![] bcast_S_S3x1024x1024 main_cst_4
  let main_v16 : IVec S3x1024x1024 1 := cmpf .olt main_v14 main_v15
  fn_part1 (F := F) main_arg4 main_v13 main_v16
-- ==== Kernel.lean ====
abbrev S16384x1024 : Shape := ⟨2, ![16384, 1024]⟩
abbrev S3x1024x1024 : Shape := ⟨3, ![3, 1024, 1024]⟩
abbrev S3x1024 : Shape := ⟨2, ![3, 1024]⟩
abbrev S1024x3x1024 : Shape := ⟨3, ![1024, 3, 1024]⟩
abbrev S1024x3072 : Shape := ⟨2, ![1024, 3072]⟩
abbrev S2x1024x1024 : Shape := ⟨3, ![2, 1024, 1024]⟩
abbrev S1024x2x1024 : Shape := ⟨3, ![1024, 2, 1024]⟩
abbrev S1024x2048 : Shape := ⟨2, ![1024, 2048]⟩
abbrev S1x1024x1024 : Shape := ⟨3, ![1, 1024, 1024]⟩
abbrev S1024x1024 : Shape := ⟨2, ![1024, 1024]⟩
abbrev S512x1024 : Shape := ⟨2, ![512, 1024]⟩
abbrev S512x3072 : Shape := ⟨2, ![512, 3072]⟩
abbrev S512x2048 : Shape := ⟨2, ![512, 2048]⟩
abbrev S1x1024 : Shape := ⟨2, ![1, 1024]⟩
abbrev S1024 : Shape := ⟨1, ![1024]⟩

abbrev nBuf : Space → Nat
  | .hbm => 17
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S3x1024x1024, .f32⟩
  | .hbm, ⟨3, _⟩ => ⟨S3x1024x1024, .f32⟩
  | .hbm, ⟨4, _⟩ => ⟨S3x1024, .f32⟩
  | .hbm, ⟨5, _⟩ => ⟨S1024x3x1024, .f32⟩
  | .hbm, ⟨6, _⟩ => ⟨S1024x3072, .f32⟩
  | .hbm, ⟨7, _⟩ => ⟨S1024x3072, .bf16⟩
  | .hbm, ⟨8, _⟩ => ⟨S2x1024x1024, .f32⟩
  | .hbm, ⟨9, _⟩ => ⟨S1024x2x1024, .f32⟩
  | .hbm, ⟨10, _⟩ => ⟨S1024x2048, .f32⟩
  | .hbm, ⟨11, _⟩ => ⟨S1024x2048, .bf16⟩
  | .hbm, ⟨12, _⟩ => ⟨S1x1024x1024, .f32⟩
  | .hbm, ⟨13, _⟩ => ⟨S1024x1024, .f32⟩
  | .hbm, ⟨14, _⟩ => ⟨S1024x1024, .f32⟩
  | .hbm, ⟨15, _⟩ => ⟨S1024x1024, .bf16⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x3072, .bf16⟩
  | .local _ .vmem, ⟨5, _⟩ => ⟨S1024x2048, .bf16⟩
  | .local _ .vmem, ⟨6, _⟩ => ⟨S1024x1024, .bf16⟩
  | .local _ .vmem, ⟨7, _⟩ => ⟨S3x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S3x1024x1024_S1024x3x1024_2_0_1 : S3x1024x1024.Transposes [2, 0, 1] S1024x3x1024
  shapeCasts_S1024x3x1024_S1024x3072 : S1024x3x1024.ShapeCasts S1024x3072
  bitsLt_bf16_f32 : FTy.bits .bf16 < FTy.bits .f32
  slices_S3x1024x1024_S2x1024x1024_0_0_0 : S3x1024x1024.Slices ![0, 0, 0] S2x1024x1024
  transposes_S2x1024x1024_S1024x2x1024_2_0_1 : S2x1024x1024.Transposes [2, 0, 1] S1024x2x1024
  shapeCasts_S1024x2x1024_S1024x2048 : S1024x2x1024.ShapeCasts S1024x2048
  slices_S3x1024x1024_S1x1024x1024_2_0_0 : S3x1024x1024.Slices ![2, 0, 0] S1x1024x1024
  shapeCasts_S1x1024x1024_S1024x1024 : S1x1024x1024.ShapeCasts S1024x1024
  transposes_S1024x1024_S1024x1024_1_0 : S1024x1024.Transposes [1, 0] S1024x1024
  inb_S512x1024_S512x1024_0_0 : ∀ a, (![0, 0] : Fin 2 → Nat) a + S512x1024.size a ≤ S512x1024.size a
  h_S512x1024 : 0 < S512x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S3x1024_S3x1024_0_0 : ∀ a, (![0, 0] : Fin 2 → Nat) a + S3x1024.size a ≤ S3x1024.size a
  h_S3x1024 : 0 < S3x1024.numel
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  slices_S512x2048_o0_0_S512x1024 : S512x2048.Slices ![0, 0] S512x1024
  slices_S512x2048_o0_1024_S512x1024 : S512x2048.Slices ![0, 1024] S512x1024
  slices_S3x1024_o0_0_S1x1024 : S3x1024.Slices ![0, 0] S1x1024
  shapeCasts_S1x1024_S1024 : S1x1024.ShapeCasts S1024
  shapeCasts_S1024_S1x1024 : S1024.ShapeCasts S1x1024
  broadcasts_S1x1024_S512x1024 : S1x1024.Broadcasts S512x1024
  slices_S3x1024_o1_0_S1x1024 : S3x1024.Slices ![1, 0] S1x1024
  slices_S3x1024_o2_0_S1x1024 : S3x1024.Slices ![2, 0] S1x1024
  dot_S512x1024_S1024x3072_S512x3072_1_0_0_1_n_n_wf : DotDims.WF S512x1024 S1024x3072 S512x3072 [1] [0] [0] [1] [] []
  dot_S512x1024_S1024x2048_S512x2048_1_0_0_1_n_n_wf : DotDims.WF S512x1024 S1024x2048 S512x2048 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x1024.size a ≤ S3x1024.size a
  hwx0_5 : ∀ i : grid0.Coords, EltTy.bits .f32 = 32 ∨ (Rect.block (s := S3x1024) S3x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .f32 = 32 ∨ (Rect.block (s := S16384x1024) S512x1024.size (cc0_transform_6 i) (hinb0_6 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S3x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S3x1024x1024 : Shape := ⟨3, ![3, 1024, 1024]⟩
abbrev S3x1024 : Shape := ⟨2, ![3, 1024]⟩
abbrev S3x1024x16384 : Shape := ⟨3, ![3, 1024, 16384]⟩
abbrev S3x16384x1024 : Shape := ⟨3, ![3, 16384, 1024]⟩
abbrev S1x16384x1024 : Shape := ⟨3, ![1, 16384, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S3x1024x1024, .f32⟩
  | .hbm, ⟨3, _⟩ => ⟨S3x1024x1024, .f32⟩
  | .hbm, ⟨4, _⟩ => ⟨S3x1024, .f32⟩
  | .hbm, ⟨5, _⟩ => ⟨S3x1024x16384, .f32⟩
  | .hbm, ⟨6, _⟩ => ⟨S3x16384x1024, .f32⟩
  | .hbm, ⟨7, _⟩ => ⟨S1x16384x1024, .f32⟩
  | .hbm, ⟨8, _⟩ => ⟨S16384x1024, .f32⟩
  | .hbm, ⟨9, _⟩ => ⟨S1x1024x1024, .f32⟩
  | .hbm, ⟨10, _⟩ => ⟨S1024x1024, .f32⟩
  | .hbm, ⟨11, _⟩ => ⟨S1024x1024, .f32⟩
  | .hbm, ⟨12, _⟩ => ⟨S16384x1024, .f32⟩
  | .hbm, ⟨13, _⟩ => ⟨S16384x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S1x16384x1024, .f32⟩
  | .hbm, ⟨28, _⟩ => ⟨S16384x1024, .f32⟩
  | .hbm, ⟨29, _⟩ => ⟨S1x1024x1024, .f32⟩
  | .hbm, ⟨30, _⟩ => ⟨S1024x1024, .f32⟩
  | .hbm, ⟨31, _⟩ => ⟨S1024x1024, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S1x16384x1024, .f32⟩
  | .hbm, ⟨48, _⟩ => ⟨S16384x1024, .f32⟩
  | .hbm, ⟨49, _⟩ => ⟨S16384x1024, .f32⟩
  | .hbm, ⟨50, _⟩ => ⟨S1x1024x1024, .f32⟩
  | .hbm, ⟨51, _⟩ => ⟨S1024x1024, .f32⟩
  | .hbm, ⟨52, _⟩ => ⟨S1024x1024, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_call0_cst : Ref sig .tc := ⟨.hbm, 60, rfl⟩
abbrev main_call0_v0 : Ref sig .tc := ⟨.hbm, 61, rfl⟩
abbrev main_v51 : Ref sig .tc := ⟨.hbm, 62, rfl⟩
abbrev main_cst_3 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]

class Facts₀ : Prop where
  transposes_S3x1024x16384_S3x16384x1024_0_2_1 : S3x1024x16384.Transposes [0, 2, 1] S3x16384x1024
  slices_S3x16384x1024_S1x16384x1024_0_0_0 : S3x16384x1024.Slices ![0, 0, 0] S1x16384x1024
  shapeCasts_S1x16384x1024_S16384x1024 : S1x16384x1024.ShapeCasts S16384x1024
  slices_S3x1024x1024_S1x1024x1024_0_0_0 : S3x1024x1024.Slices ![0, 0, 0] S1x1024x1024
  shapeCasts_S1x1024x1024_S1024x1024 : S1x1024x1024.ShapeCasts S1024x1024
  transposes_S1024x1024_S1024x1024_1_0 : S1024x1024.Transposes [1, 0] S1024x1024
  slices_S3x1024_S1x1024_0_0 : S3x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  slices_S3x16384x1024_S1x16384x1024_1_0_0 : S3x16384x1024.Slices ![1, 0, 0] S1x16384x1024
  slices_S3x1024x1024_S1x1024x1024_1_0_0 : S3x1024x1024.Slices ![1, 0, 0] S1x1024x1024
  slices_S3x1024_S1x1024_1_0 : S3x1024.Slices ![1, 0] S1x1024
  slices_S3x16384x1024_S1x16384x1024_2_0_0 : S3x16384x1024.Slices ![2, 0, 0] S1x16384x1024
  slices_S3x1024x1024_S1x1024x1024_2_0_0 : S3x1024x1024.Slices ![2, 0, 0] S1x1024x1024
  slices_S3x1024_S1x1024_2_0 : S3x1024.Slices ![2, 0] S1x1024
  dot_S3x1024x1024_S16384x1024_S3x1024x16384_2_1_01_0_n_n_wf : DotDims.WF S3x1024x1024 S16384x1024 S3x1024x16384 [2] [1] [0, 1] [0] [] []
  dot_S16384x1024_S1024x1024_S16384x1024_1_0_0_1_n_n_wf : DotDims.WF S16384x1024 S1024x1024 S16384x1024 [1] [0] [0] [1] [] []

variable [Facts₀]

def dot_S3x1024x1024_S16384x1024_S3x1024x16384_2_1_01_0_n_n : DotDims S3x1024x1024 S16384x1024 S3x1024x16384 where
  lhsContracting := [2]
  rhsContracting := [1]
  lhsNonContracting := [0, 1]
  rhsNonContracting := [0]
  lhsBatch := []
  rhsBatch := []
  wf := dot_S3x1024x1024_S16384x1024_S3x1024x16384_2_1_01_0_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.KernelBlock.lean ====
/-
  What one grid point's body computes, as a function of the six blocks it loads, index by index.

  The body multiplies the 512 input rows by the fused input-weight slab (1024 × 3072: the three gates' columns side
  by side) and the 512 hidden rows by the fused hidden slab of the two sigmoid gates (1024 × 2048), slices a gate's 1024
  columns out of each product, adds the bias row, and applies the logistic function; the third gate multiplies the
  reset-weighted hidden rows by its own slab (1024 × 1024) and is rectified. Read at row `p`, column `q` of the block,
  every matmul is a sum over the 1024 contracted positions of row-entry times column-entry, a column slice at offset
  `o` reads column `o + q`, and a bias row `g` broadcast down the rows reads entry `(g, q)`.
-/
import proofs.«127697_j51187420234361_2_alg».proof.Proof.Gen.KernelIdeal.Value
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen Cert.KernelIdeal.Value Idealize.ShloMosaic Idealize.ShloMosaic.ValueIdx

/-! ## Columns of the fused slabs -/

/-- Column `o + q` of a 3072-column slab: gate `o / 1024`'s unit `q`. -/
abbrev col3 (o : Nat) (q : Fin 1024) (ho : o ≤ 2048 := by decide) : Fin 3072 := ⟨o + q.val, by have := q.isLt; omega⟩
/-- Column `o + q` of a 2048-column slab. -/
abbrev col2 (o : Nat) (q : Fin 1024) (ho : o ≤ 1024 := by decide) : Fin 2048 := ⟨o + q.val, by have := q.isLt; omega⟩

/-! ## The three matmuls at an index -/

/-- The left operand's row coordinate at output index `i` is `i`'s row. -/
theorem lhs3072_0 (i : S512x3072.Idx) (c : dot_S512x1024_S1024x3072_S512x3072_1_0_0_1_n_n.contr.Idx) : (dot_S512x1024_S1024x3072_S512x3072_1_0_0_1_n_n.lhsIdx i c 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
/-- The right operand's column coordinate at output index `i` is `i`'s column. -/
theorem rhs3072_1 (i : S512x3072.Idx) (c : dot_S512x1024_S1024x3072_S512x3072_1_0_0_1_n_n.contr.Idx) : (dot_S512x1024_S1024x3072_S512x3072_1_0_0_1_n_n.rhsIdx i c 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl
/-- A block matmul into the zero accumulator, at row `p` and column `n`: the row of the left operand against the
    column of the right one, summed over the 1024 contracted positions. -/
theorem matmul3072_apply {φ₁ φ₂ : FTy} (lhs : FVec Ideal S512x1024 φ₁) (rhs : FVec Ideal S1024x3072 φ₂) (p : Fin 512) (n : Fin 3072) :
    matmul dot_S512x1024_S1024x3072_S512x3072_1_0_0_1_n_n none lhs rhs (constant S512x3072 .f32 0x00000000#32) (ix2 p n)
      = ∑ k : Fin 1024, lhs (ix2 p k) * rhs (ix2 k n) := by
  simp only [matmul]
  rw [Ideal.matmul_constant_zero_apply, ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p n) ((contrEquiv1 dot_S512x1024_S1024x3072_S512x3072_1_0_0_1_n_n 1024 rfl rfl).symm k) = ix2 p k := funext fun a => Fin.ext (by
    match a with
    | ⟨0, _⟩ => exact lhs3072_0 _ _
    | ⟨1, _⟩ => exact (dot_S512x1024_S1024x3072_S512x3072_1_0_0_1_n_n.lhsIdx_val_of_single rfl _ _).trans hk)
  have er : dot_S512x1024_S1024x3072_S512x3072_1_0_0_1_n_n.rhsIdx (ix2 p n) ((contrEquiv1 dot_S512x1024_S1024x3072_S512x3072_1_0_0_1_n_n 1024 rfl rfl).symm k) = ix2 k n := funext fun a => Fin.ext (by
    match a with
    | ⟨0, _⟩ => exact (dot_S512x1024_S1024x3072_S512x3072_1_0_0_1_n_n.rhsIdx_val_of_single rfl _ _).trans hk
    | ⟨1, _⟩ => exact rhs3072_1 _ _)
  rw [el, er]

/-- The left operand's row coordinate at output index `i` is `i`'s row. -/
theorem lhs2048_0 (i : S512x2048.Idx) (c : dot_S512x1024_S1024x2048_S512x2048_1_0_0_1_n_n.contr.Idx) : (dot_S512x1024_S1024x2048_S512x2048_1_0_0_1_n_n.lhsIdx i c 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
/-- The right operand's column coordinate at output index `i` is `i`'s column. -/
theorem rhs2048_1 (i : S512x2048.Idx) (c : dot_S512x1024_S1024x2048_S512x2048_1_0_0_1_n_n.contr.Idx) : (dot_S512x1024_S1024x2048_S512x2048_1_0_0_1_n_n.rhsIdx i c 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl
/-- A block matmul into the zero accumulator, at row `p` and column `n`: the row of the left operand against the
    column of the right one, summed over the 1024 contracted positions. -/
theorem matmul2048_apply {φ₁ φ₂ : FTy} (lhs : FVec Ideal S512x1024 φ₁) (rhs : FVec Ideal S1024x2048 φ₂) (p : Fin 512) (n : Fin 2048) :
    matmul dot_S512x1024_S1024x2048_S512x2048_1_0_0_1_n_n none lhs rhs (constant S512x2048 .f32 0x00000000#32) (ix2 p n)
      = ∑ k : Fin 1024, lhs (ix2 p k) * rhs (ix2 k n) := by
  simp only [matmul]
  rw [Ideal.matmul_constant_zero_apply, ← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 p n) ((contrEquiv1 dot_S512x1024_S1024x2048_S512x2048_1_0_0_1_n_n 1024 rfl rfl).symm k) = ix2 p k := funext fun a => Fin.ext (by
    match a with
    | ⟨0, _⟩ => exact lhs2048_0 _ _
    | ⟨1, _⟩ => exact (dot_S512x1024_S1024x2048_S512x2048_1_0_0_1_n_n.lhsIdx_val_of_single rfl _ _).trans hk)
  have er : dot_S512x1024_S1024x2048_S512x2048_1_0_0_1_n_n.rhsIdx (ix2 p n) ((contrEquiv1 dot_S512x1024_S1024x2048_S512x2048_1_0_0_1_n_n 1024 rfl rfl).symm k) = ix2 k n := funext fun a => Fin.ext (by
    match a with
    | ⟨0, _⟩ => exact (dot_S512x1024_S1024x2048_S512x2048_1_0_0_1_n_n.rhsIdx_val_of_single rfl _ _).trans hk
    | ⟨1, _⟩ => exact rhs2048_1 _ _)
  rw [el, er]

/-- The left operand's row coordinate at output index `i` is `i`'s row. -/
theorem lhs1024_0 (i : S512x1024.Idx) (c : dot_S512x1024_S1024x1024_S512x1024_1_0_0_1_n_n.contr.Idx) : (dot_S512x1024_S1024x1024_S512x1024_1_0_0_1_n_n.lhsIdx i c 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- The right operand's column coordinate at output index `i` is `i`'s column. -/
theorem rhs1024_1 (i : S512x1024.Idx) (c : dot_S512x1024_S1024x1024_S512x1024_1_0_0_1_n_n.contr.Idx) : (dot_S512x1024_S1024x1024_S512x1024_1_0_0_1_n_n.rhsIdx i c 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
/-- A block matmul into the zero accumulator, at row `p` and column `n`: the row of the left operand against the
    column of the right one, summed over the 1024 contracted positions. -/
theorem matmul1024_apply {φ₁ φ₂ : FTy} (lhs : FVec Ideal S512x1024 φ₁) (rhs : FVec Ideal S1024x1024 φ₂) (p : Fin 512) (n : Fin 1024) :
    matmul dot_S512x1024_S1024x1024_S512x1024_1_0_0_1_n_n none lhs rhs (constant S512x1024 .f32 0x00000000#32) (ix2 p n)
      = ∑ k : Fin 1024, lhs (ix2 p k) * rhs (ix2 k n) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p n) ((contrEquiv1 dot_S512x1024_S1024x1024_S512x1024_1_0_0_1_n_n 1024 rfl rfl).symm k) = ix2 p k := funext fun a => Fin.ext (by
    match a with
    | ⟨0, _⟩ => exact lhs1024_0 _ _
    | ⟨1, _⟩ => exact (dot_S512x1024_S1024x1024_S512x1024_1_0_0_1_n_n.lhsIdx_val_of_single rfl _ _).trans hk)
  have er : dot_S512x1024_S1024x1024_S512x1024_1_0_0_1_n_n.rhsIdx (ix2 p n) ((contrEquiv1 dot_S512x1024_S1024x1024_S512x1024_1_0_0_1_n_n 1024 rfl rfl).symm k) = ix2 k n := funext fun a => Fin.ext (by
    match a with
    | ⟨0, _⟩ => exact (dot_S512x1024_S1024x1024_S512x1024_1_0_0_1_n_n.rhsIdx_val_of_single rfl _ _).trans hk
    | ⟨1, _⟩ => exact rhs1024_1 _ _)
  rw [el, er]

/-- The input rows times the fused input slab. -/
theorem pay2_apply (P0 : Vec Ideal S512x1024 .f32) (P1 : Vec Ideal S1024x3072 .bf16) (p : Fin 512) (n : Fin 3072) :
    k0_pay2 (F := Ideal) P0 P1 (ix2 p n) = ∑ k : Fin 1024, P0 (ix2 p k) * P1 (ix2 k n) := by
  unfold k0_pay2
  refine (matmul3072_apply _ _ p n).trans ?_
  refine Finset.sum_congr rfl fun k _ => ?_
  rw [shapeCast_self]
  rfl

/-- The hidden rows times the fused hidden slab of the two sigmoid gates. -/
theorem pay3_apply (P2 : Vec Ideal S512x1024 .f32) (P3 : Vec Ideal S1024x2048 .bf16) (p : Fin 512) (n : Fin 2048) :
    k0_pay3 (F := Ideal) P2 P3 (ix2 p n) = ∑ k : Fin 1024, P2 (ix2 p k) * P3 (ix2 k n) := by
  unfold k0_pay3
  refine (matmul2048_apply _ _ p n).trans ?_
  refine Finset.sum_congr rfl fun k _ => ?_
  rw [shapeCast_self]
  rfl

/-! ## Slices and the bias rows at an index -/

/-- A 1024-column slice of a 3072-column product at column offset `o`. -/
theorem slice3_apply (o : Nat) (v : S512x3072.Idx → EReal) (h : S512x3072.Slices ![0, o] S512x1024) (p : Fin 512) (q : Fin 1024)
    (ho : o ≤ 2048) : extractStridedSlice S512x1024 ![0, o] v h (ix2 p q) = v (ix2 p (col3 o q ho)) :=
  extractStridedSlice_apply ![0, o] v h (ix2 p q) (ix2 p (col3 o q ho)) (fun a => match a with
    | ⟨0, _⟩ => by show p.val = 0 + p.val; omega
    | ⟨1, _⟩ => by show o + q.val = o + q.val; rfl)

/-- A 1024-column slice of a 2048-column product at column offset `o`. -/
theorem slice2_apply (o : Nat) (v : S512x2048.Idx → EReal) (h : S512x2048.Slices ![0, o] S512x1024) (p : Fin 512) (q : Fin 1024)
    (ho : o ≤ 1024) : extractStridedSlice S512x1024 ![0, o] v h (ix2 p q) = v (ix2 p (col2 o q ho)) :=
  extractStridedSlice_apply ![0, o] v h (ix2 p q) (ix2 p (col2 o q ho)) (fun a => match a with
    | ⟨0, _⟩ => by show p.val = 0 + p.val; omega
    | ⟨1, _⟩ => by show o + q.val = o + q.val; rfl)

/-- Bias row `g`, sliced out, flattened, restored to one row and broadcast down the 512 rows, reads entry `(g, q)`. -/
theorem biasRow_apply (o : Nat) (g : Fin 3) (hg : g.val = o) (P4 : S3x1024.Idx → EReal) (h : S3x1024.Slices ![o, 0] S1x1024) (p : Fin 512) (q : Fin 1024) :
    broadcastTo S512x1024 (shapeCast S1x1024 (shapeCast S1024 (extractStridedSlice S1x1024 ![o, 0] P4 h) shapeCasts_S1x1024_S1024)
      shapeCasts_S1024_S1x1024) broadcasts_S1x1024_S512x1024 (ix2 p q) = P4 (ix2 g q) := by
  have hq := q.isLt
  refine (broadcastTo_apply _ _ (ix2 p q) (ix2 (0 : Fin 1) q) (fun a => match a with
    | ⟨0, _⟩ => by show 0 = (if (1 : Nat) = 1 then 0 else p.val); rw [if_pos rfl]
    | ⟨1, _⟩ => by show q.val = (if (1024 : Nat) = 1 then 0 else q.val); rw [if_neg (by decide)])).trans ?_
  refine (shapeCast_apply _ _ (ix2 (0 : Fin 1) q) (ix1 q) (by
    rw [Shape.rowMajor_val_one, Shape.rowMajor_val_two]; show q.val = 0 * 1024 + q.val; omega)).trans ?_
  refine (shapeCast_apply _ _ (ix1 q) (ix2 (0 : Fin 1) q) (by
    rw [Shape.rowMajor_val_two, Shape.rowMajor_val_one]; show 0 * 1024 + q.val = q.val; omega)).trans ?_
  exact extractStridedSlice_apply ![o, 0] P4 h (ix2 (0 : Fin 1) q) (ix2 g q) (fun a => match a with
    | ⟨0, _⟩ => by show g.val = o + 0; omega
    | ⟨1, _⟩ => by show q.val = 0 + q.val; omega)

/-! ## The rectified candidate and the whole block at an index -/

/-- The candidate branch at row `p`, column `q`: the third gate's input projection (columns 2048… of the input product),
    plus the reset-weighted hidden row against the third hidden slab, plus the third bias, rectified. The reset gate
    at position `k` is the logistic function of the second gate's columns (offset 1024) of both products and the second bias. -/
theorem pay5_apply (P0 P2 : Vec Ideal S512x1024 .f32) (P1 : Vec Ideal S1024x3072 .bf16) (P3 : Vec Ideal S1024x2048 .bf16)
    (P5 : Vec Ideal S1024x1024 .bf16) (P4 : Vec Ideal S3x1024 .f32) (p : Fin 512) (q : Fin 1024) :
    k0_pay5 (F := Ideal) P0 P2 P1 P3 P5 P4 (ix2 p q)
      = max ((k0_pay2 (F := Ideal) P0 P1 (ix2 p (col3 2048 q))
              + ∑ k : Fin 1024, (P2 (ix2 p k) * Ideal.logistic ((k0_pay2 (F := Ideal) P0 P1 (ix2 p (col3 1024 k))
                    + k0_pay3 (F := Ideal) P2 P3 (ix2 p (col2 1024 k))) + P4 (ix2 1 k))) * P5 (ix2 k q))
             + P4 (ix2 2 q)) (Ideal.ofBits .f32 0x00000000#32) := by
  unfold k0_pay5
  show max ((extractStridedSlice S512x1024 ![0, 2048] (k0_pay2 (F := Ideal) P0 P1) slices_S512x3072_o0_2048_S512x1024 (ix2 p q)
        + matmul dot_S512x1024_S1024x1024_S512x1024_1_0_0_1_n_n none _ _ (constant S512x1024 .f32 0x00000000#32) (ix2 p q))
      + broadcastTo S512x1024 _ broadcasts_S1x1024_S512x1024 (ix2 p q)) (Ideal.ofBits .f32 0x00000000#32) = _
  rw [slice3_apply 2048 _ _ p q (by decide), matmul1024_apply, biasRow_apply 2 2 rfl P4 _ p q]
  refine congrArg (max · _) (congrArg (· + _) (congrArg (_ + ·) (Finset.sum_congr rfl fun k _ => ?_)))
  rw [shapeCast_self]
  show (P2 (ix2 p k) * Ideal.logistic ((extractStridedSlice S512x1024 ![0, 1024] (k0_pay2 (F := Ideal) P0 P1) slices_S512x3072_o0_1024_S512x1024 (ix2 p k)
        + extractStridedSlice S512x1024 ![0, 1024] (k0_pay3 (F := Ideal) P2 P3) slices_S512x2048_o0_1024_S512x1024 (ix2 p k))
      + broadcastTo S512x1024 _ broadcasts_S1x1024_S512x1024 (ix2 p k))) * P5 (ix2 k q) = _
  rw [slice3_apply 1024 _ _ p k (by decide), slice2_apply 1024 _ _ p k (by decide), biasRow_apply 1 1 rfl P4 _ p k]

/-- The block a grid point leaves, at row `p`, column `q`: the update gate (first gate's columns, offset 0, of both
    products and the first bias) blends the candidate with the hidden block's own entry. -/
theorem E6_apply (P0 P2 : Vec Ideal S512x1024 .f32) (P1 : Vec Ideal S1024x3072 .bf16) (P3 : Vec Ideal S1024x2048 .bf16)
    (P5 : Vec Ideal S1024x1024 .bf16) (P4 : Vec Ideal S3x1024 .f32) (p : Fin 512) (q : Fin 1024) :
    E6 (F := Ideal) P0 P1 P2 P3 P4 P5 (ix2 p q)
      = (Ideal.ofBits .f32 0x3F800000#32 - Ideal.logistic ((k0_pay2 (F := Ideal) P0 P1 (ix2 p (col3 0 q))
            + k0_pay3 (F := Ideal) P2 P3 (ix2 p (col2 0 q))) + P4 (ix2 0 q))) * k0_pay5 (F := Ideal) P0 P2 P1 P3 P5 P4 (ix2 p q)
        + Ideal.logistic ((k0_pay2 (F := Ideal) P0 P1 (ix2 p (col3 0 q)) + k0_pay3 (F := Ideal) P2 P3 (ix2 p (col2 0 q)))
            + P4 (ix2 0 q)) * P2 (ix2 p q) := by
  have e0 : ix6_0 (ix2 p q) = ix2 p (col3 0 q) := funext fun a => Fin.ext (by
    match a with
    | ⟨0, _⟩ => rfl
    | ⟨1, _⟩ => show q.val = 0 + q.val; omega)
  have e1 : ix6_1 (ix2 p q) = ix2 p (col2 0 q) := funext fun a => Fin.ext (by
    match a with
    | ⟨0, _⟩ => rfl
    | ⟨1, _⟩ => show q.val = 0 + q.val; omega)
  have e2 : ix6_2 (ix2 p q) = ix2 (0 : Fin 3) q := funext fun a => Fin.ext (by
    match a with
    | ⟨0, _⟩ => rfl
    | ⟨1, _⟩ => rfl)
  have e3 : ix6_3 (ix2 p q) = ix2 p q := funext fun a => Fin.ext (by
    match a with
    | ⟨0, _⟩ => rfl
    | ⟨1, _⟩ => rfl)
  have e4 : ix6_4 (ix2 p q) = ix2 p (col3 0 q) := e0
  have e5 : ix6_5 (ix2 p q) = ix2 p (col2 0 q) := e1
  have e6 : ix6_6 (ix2 p q) = ix2 (0 : Fin 3) q := e2
  have e7 : ix6_7 (ix2 p q) = ix2 p q := e3
  show (Ideal.ofBits .f32 0x3F800000#32 - Ideal.logistic ((k0_pay2 (F := Ideal) P0 P1 (ix6_0 (ix2 p q))
            + k0_pay3 (F := Ideal) P2 P3 (ix6_1 (ix2 p q))) + P4 (ix6_2 (ix2 p q)))) * k0_pay5 (F := Ideal) P0 P2 P1 P3 P5 P4 (ix6_3 (ix2 p q))
        + Ideal.logistic ((k0_pay2 (F := Ideal) P0 P1 (ix6_4 (ix2 p q)) + k0_pay3 (F := Ideal) P2 P3 (ix6_5 (ix2 p q)))
            + P4 (ix6_6 (ix2 p q))) * P2 (ix6_7 (ix2 p q)) = _
  rw [e0, e1, e2, e3, e4, e5, e6, e7]

end Cert.KernelIdeal.Block

end
-- ==== Proof.GruCell.lean ====
/-
  The ReLU-GRU cell as ONE function of the five argument arrays, index by index, on the extended reals.

  For a batch row `r` and a hidden unit `j`, with `x` the input rows, `h` the previous hidden rows, `Wi` and `Wh` the
  three gates' input and hidden weight matrices (gate, unit, feature) and `b` the three bias rows:
    inProj g r j  = Σ_k Wi[g, j, k] · x[r, k]            (the input projection of gate g)
    hidProj g r j = Σ_k h[r, k] · Wh[g, j, k]            (the hidden projection of gate g)
    gate g r j    = logistic ((inProj g r j + hidProj g r j) + b[g, j])
    cand r j      = max ((inProj 2 r j + Σ_k (h[r, k] · gate 1 r k) · Wh[2, j, k]) + b[2, j]) 0
    cell r j      = (1 − gate 0 r j) · cand r j + gate 0 r j · h[r, j]
  The additions are grouped as written: on the extended reals addition is associative and commutative, but nothing
  here needs to regroup a sum, so no finiteness of the entries is used. The two float literals `1.0` and `0.0` are
  kept as the patterns both programs spell; only `1.0` is ever evaluated (it meets the `1` of the logistic function).
-/
import Idealize.ShloMosaic.PureOps.Ideal
import Idealize.ShloMosaic.Lib.ValueIdx

noncomputable section

namespace Cert.GruCell

open Idealize.ShloMosaic Idealize.ShloMosaic.ValueIdx

/-- Batch rows of 1024 features: the input, the hidden state, the result. -/
abbrev Rows : Type := (⟨2, ![16384, 1024]⟩ : Shape).Idx → EReal
/-- Three gates' weight matrices, indexed (gate, unit, feature). -/
abbrev Gates : Type := (⟨3, ![3, 1024, 1024]⟩ : Shape).Idx → EReal
/-- Three gates' bias rows. -/
abbrev Biases : Type := (⟨2, ![3, 1024]⟩ : Shape).Idx → EReal

/-- The pattern `0x3F800000` is the f32 number one. -/
theorem ofBits_one : Ideal.ofBits .f32 0x3F800000#32 = 1 := by
  simp [Ideal.ofBits, Ideal.ieee, -EReal.coe_mul]
  norm_num

/-- The input projection of gate `g` at row `r`, unit `j`. -/
def inProj (x : Rows) (Wi : Gates) (g : Fin 3) (r : Fin 16384) (j : Fin 1024) : EReal :=
  ∑ k : Fin 1024, Wi (ix3 g j k) * x (ix2 r k)

/-- The hidden projection of gate `g` at row `r`, unit `j`. -/
def hidProj (h : Rows) (Wh : Gates) (g : Fin 3) (r : Fin 16384) (j : Fin 1024) : EReal :=
  ∑ k : Fin 1024, h (ix2 r k) * Wh (ix3 g j k)

/-- A sigmoid gate: the logistic function of the two projections and the bias, added in that order. -/
def gate (x h : Rows) (Wi Wh : Gates) (b : Biases) (g : Fin 3) (r : Fin 16384) (j : Fin 1024) : EReal :=
  Ideal.logistic (inProj x Wi g r j + hidProj h Wh g r j + b (ix2 g j))

/-- The candidate state: the rectified sum of the third input projection, the third hidden projection of the
    reset-weighted hidden row, and the third bias. -/
def cand (x h : Rows) (Wi Wh : Gates) (b : Biases) (r : Fin 16384) (j : Fin 1024) : EReal :=
  max (inProj x Wi 2 r j + (∑ k : Fin 1024, (h (ix2 r k) * gate x h Wi Wh b 1 r k) * Wh (ix3 2 j k)) + b (ix2 2 j))
    (Ideal.ofBits .f32 0x00000000#32)

/-- The new hidden state: the update gate blends the candidate with the previous state. -/
def cell (x h : Rows) (Wi Wh : Gates) (b : Biases) : Rows := fun i =>
  (Ideal.ofBits .f32 0x3F800000#32 - gate x h Wi Wh b 0 (i 0) (i 1)) * cand x h Wi Wh b (i 0) (i 1)
    + gate x h Wi Wh b 0 (i 0) (i 1) * h i

end Cert.GruCell

end
-- ==== Proof.KernelCell.lean ====
/-
  One grid point's block is the cell function on that point's rows.

  Stated over variables: six blocks `X H A B C bb` (input rows, hidden rows, the fused input slab, the fused hidden slab
  of the two sigmoid gates, the third gate's hidden slab, the biases) and the five arrays `x h Wi Wh b`, with what each
  block's entries are: `X` and `H` are rows `r0 …  r0 + 511` of `x` and `h`; column `g·1024 + j` of a fused slab, at
  row `k`, is the weight `(g, j, k)` — the slabs are the gate matrices transposed and laid side by side —; `C` is the third
  hidden matrix transposed; `bb` is `b`. Under these the block the body leaves, at `(p, q)`, is `cell` at `(r0 + p, q)`.
  The only algebra is commutativity of the product inside the input projection (the body multiplies row entry by
  slab entry, the cell function is written weight first); it holds on all extended reals.
-/
import proofs.«127697_j51187420234361_2_alg».proof.Proof.KernelBlock
import proofs.«127697_j51187420234361_2_alg».proof.Proof.GruCell

noncomputable section

namespace Cert.KernelIdeal.Block

open Cert.KernelIdeal Cert.KernelIdeal.Gen Cert.KernelIdeal.Value Cert.GruCell Idealize.ShloMosaic Idealize.ShloMosaic.ValueIdx

/-- The zero offsets of a whole-block access. -/
theorem hz : (![0, 0] : Fin 2 → Nat) = fun _ => 0 := funext fun a => by fin_cases a <;> rfl

/-- Row `p` of the block that starts at array row `r0`. -/
abbrev row (r0 : Nat) (hr0 : r0 + 512 ≤ 16384) (p : Fin 512) : Fin 16384 := ⟨r0 + p.val, by have := p.isLt; omega⟩

section

variable (X H : Vec Ideal S512x1024 .f32) (A : Vec Ideal S1024x3072 .bf16) (B : Vec Ideal S1024x2048 .bf16)
  (C : Vec Ideal S1024x1024 .bf16) (bb : Vec Ideal S3x1024 .f32)
  (x h : Rows) (Wi Wh : Gates) (b : Biases) (r0 : Nat) (hr0 : r0 + 512 ≤ 16384)
  (hX : ∀ (p : Fin 512) (k : Fin 1024), X (ix2 p k) = x (ix2 (row r0 hr0 p) k))
  (hH : ∀ (p : Fin 512) (k : Fin 1024), H (ix2 p k) = h (ix2 (row r0 hr0 p) k))
  (hA : ∀ (k : Fin 1024) (g : Fin 3) (j : Fin 1024) (n : Fin 3072), n.val = g.val * 1024 + j.val → A (ix2 k n) = Wi (ix3 g j k))
  (hB : ∀ (k : Fin 1024) (g : Fin 3) (j : Fin 1024) (n : Fin 2048), n.val = g.val * 1024 + j.val → B (ix2 k n) = Wh (ix3 g j k))
  (hC : ∀ (k j : Fin 1024), C (ix2 k j) = Wh (ix3 2 j k))
  (hb : ∀ (g : Fin 3) (j : Fin 1024), bb (ix2 g j) = b (ix2 g j))

include hX hA in
/-- Column `g·1024 + j` of the input product is gate `g`'s input projection at unit `j`. -/
theorem gi_eq (g : Fin 3) (p : Fin 512) (j : Fin 1024) (n : Fin 3072) (hn : n.val = g.val * 1024 + j.val) :
    k0_pay2 (F := Ideal) X A (ix2 p n) = inProj x Wi g (row r0 hr0 p) j := by
  rw [pay2_apply]
  unfold inProj
  refine Finset.sum_congr rfl fun k _ => ?_
  rw [hX, hA k g j n hn, mul_comm]

include hH hB in
/-- Column `g·1024 + j` of the hidden product is gate `g`'s hidden projection at unit `j`. -/
theorem gh_eq (g : Fin 3) (p : Fin 512) (j : Fin 1024) (n : Fin 2048) (hn : n.val = g.val * 1024 + j.val) :
    k0_pay3 (F := Ideal) H B (ix2 p n) = hidProj h Wh g (row r0 hr0 p) j := by
  rw [pay3_apply]
  unfold hidProj
  refine Finset.sum_congr rfl fun k _ => ?_
  rw [hH, hB k g j n hn]

include hX hH hA hB hC hb in
/-- The block the body leaves at `(p, q)` is the cell function at `(r0 + p, q)`. -/
theorem block_eq (p : Fin 512) (q : Fin 1024) :
    out0_6 (F := Ideal) X H A B C bb (ix2 p q) = cell x h Wi Wh b (ix2 (row r0 hr0 p) q) := by
  unfold out0_6
  simp only [View.ld_unit_zero (S := S512x1024) hz, View.ld_unit_zero (S := S1024x3072) hz, View.ld_unit_zero (S := S1024x2048) hz,
    View.ld_unit_zero (S := S1024x1024) hz, View.ld_unit_zero (S := S3x1024) hz]
  refine (canon6_eq X A H B bb C (ix2 p q)).trans ?_
  rw [E6_apply, pay5_apply]
  have hs : (∑ k : Fin 1024, (H (ix2 p k) * Ideal.logistic ((k0_pay2 (F := Ideal) X A (ix2 p (col3 1024 k))
            + k0_pay3 (F := Ideal) H B (ix2 p (col2 1024 k))) + bb (ix2 1 k))) * C (ix2 k q))
        = ∑ k : Fin 1024, (h (ix2 (row r0 hr0 p) k) * gate x h Wi Wh b 1 (row r0 hr0 p) k) * Wh (ix3 2 q k) := by
    refine Finset.sum_congr rfl fun k _ => ?_
    rw [hH, gi_eq X A x Wi r0 hr0 hX hA 1 p k (col3 1024 k) (by show 1024 + k.val = 1 * 1024 + k.val; omega),
      gh_eq H B h Wh r0 hr0 hH hB 1 p k (col2 1024 k) (by show 1024 + k.val = 1 * 1024 + k.val; omega), hb, hC]
    rfl
  rw [hs, gi_eq X A x Wi r0 hr0 hX hA 0 p q (col3 0 q) (by show 0 + q.val = 0 * 1024 + q.val; omega),
    gh_eq H B h Wh r0 hr0 hH hB 0 p q (col2 0 q) (by show 0 + q.val = 0 * 1024 + q.val; omega),
    gi_eq X A x Wi r0 hr0 hX hA 2 p q (col3 2048 q) (by show 2048 + q.val = 2 * 1024 + q.val; omega), hb 0 q, hb 2 q, hH p q]
  rfl

end

end Cert.KernelIdeal.Block

end
-- ==== Proof.KernelArray.lean ====
/-
  The kernel's result array after the run is the cell function of the argument arrays.

  Before the region the host lays the weights out for the body: the input weights (gate, unit, feature) are transposed to
  (feature, gate, unit) and flattened to 1024 × 3072, so that row `k`, column `g·1024 + j` holds weight `(g, j, k)`; the
  first two hidden gates likewise to 1024 × 2048; the third hidden gate is transposed to (feature, unit). (The change of
  float format that follows each is the identity on extended reals.) The region's 32 grid points each take 512 rows
  of the input and of the hidden state, and the whole of the three slabs and of the biases; point `t` writes rows
  `512 t … 512 t + 511` of the result. With the block lemma, what point `t` writes back is block `t` of the cell function;
  the 32 blocks cover all 16384 rows (row `r` lies in the block of point `r / 512`), so the array ends holding the
  cell function everywhere.
-/
import proofs.«127697_j51187420234361_2_alg».proof.Proof.KernelCell
import Idealize.ShloMosaic.Lib.StableHlo.Run

noncomputable section

namespace Cert.KernelIdeal.Arr

open Cert.KernelIdeal Cert.KernelIdeal.Gen Cert.KernelIdeal.Value Cert.KernelIdeal.Block Cert.GruCell
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The slabs the host lays out before the region -/

theorem V_v2 (c : Dev nD) : (V m c main_v2 : S1024x3072.Idx → EReal)
    = truncf (F := Ideal) .bf16 (shapeCast S1024x3072 (transpose S1024x3x1024 [2, 0, 1] (m ((c : Thread nD τ).loc main_arg2))
        transposes_S3x1024x1024_S1024x3x1024_2_0_1) shapeCasts_S1024x3x1024_S1024x3072) bitsLt_bf16_f32 := by
  dsimp only [Gen.V, Gen.hostOps0]
  after_results
  rfl

theorem V_v6 (c : Dev nD) : (V m c main_v6 : S1024x2048.Idx → EReal)
    = truncf (F := Ideal) .bf16 (shapeCast S1024x2048 (transpose S1024x2x1024 [2, 0, 1]
        (extractStridedSlice S2x1024x1024 ![0, 0, 0] (m ((c : Thread nD τ).loc main_arg3)) slices_S3x1024x1024_S2x1024x1024_0_0_0)
        transposes_S2x1024x1024_S1024x2x1024_2_0_1) shapeCasts_S1024x2x1024_S1024x2048) bitsLt_bf16_f32 := by
  dsimp only [Gen.V, Gen.hostOps0]
  after_results
  rfl

theorem V_v10 (c : Dev nD) : (V m c main_v10 : S1024x1024.Idx → EReal)
    = truncf (F := Ideal) .bf16 (transpose S1024x1024 [1, 0] (shapeCast S1024x1024
        (extractStridedSlice S1x1024x1024 ![2, 0, 0] (m ((c : Thread nD τ).loc main_arg3)) slices_S3x1024x1024_S1x1024x1024_2_0_0)
        shapeCasts_S1x1024x1024_S1024x1024) transposes_S1024x1024_S1024x1024_1_0) bitsLt_bf16_f32 := by
  dsimp only [Gen.V, Gen.hostOps0]
  after_results
  rfl

/-- Row `k`, column `g·1024 + j` of the fused input slab is input weight `(g, j, k)`. -/
theorem v2_apply (c : Dev nD) (k : Fin 1024) (g : Fin 3) (j : Fin 1024) (n : Fin 3072) (hn : n.val = g.val * 1024 + j.val) :
    (V m c main_v2 : S1024x3072.Idx → EReal) (ix2 k n) = ((m ((c : Thread nD τ).loc main_arg2)) : Gates) (ix3 g j k) := by
  have hk := k.isLt; have hg := g.isLt; have hj := j.isLt
  refine (congrFun (V_v2 m c) (ix2 k n)).trans ?_
  show shapeCast S1024x3072 (transpose S1024x3x1024 [2, 0, 1] _ transposes_S3x1024x1024_S1024x3x1024_2_0_1) shapeCasts_S1024x3x1024_S1024x3072 (ix2 k n) = _
  refine (shapeCast_apply _ _ (ix2 k n) (ix3 k g j) (by
    rewrite [Shape.rowMajor_val_three, Shape.rowMajor_val_two]
    show (k.val * 3 + g.val) * 1024 + j.val = k.val * 3072 + n.val; omega)).trans ?_
  exact transpose_apply [2, 0, 1] _ _ (ix3 k g j) (ix3 g j k) (fun b => match b with
    | ⟨0, _⟩ => rfl
    | ⟨1, _⟩ => rfl
    | ⟨2, _⟩ => rfl)

/-- Row `k`, column `g·1024 + j` of the fused hidden slab (the two sigmoid gates) is hidden weight `(g, j, k)`. -/
theorem v6_apply (c : Dev nD) (k : Fin 1024) (g : Fin 3) (j : Fin 1024) (n : Fin 2048) (hn : n.val = g.val * 1024 + j.val) :
    (V m c main_v6 : S1024x2048.Idx → EReal) (ix2 k n) = ((m ((c : Thread nD τ).loc main_arg3)) : Gates) (ix3 g j k) := by
  have hk := k.isLt; have hnl := n.isLt; have hj := j.isLt
  have hg : g.val < 2 := by omega
  refine (congrFun (V_v6 m c) (ix2 k n)).trans ?_
  show (shapeCast S1024x2048 (transpose S1024x2x1024 [2, 0, 1]
      (extractStridedSlice S2x1024x1024 ![0, 0, 0] ((m ((c : Thread nD τ).loc main_arg3)) : S3x1024x1024.Idx → EReal) slices_S3x1024x1024_S2x1024x1024_0_0_0)
      transposes_S2x1024x1024_S1024x2x1024_2_0_1) shapeCasts_S1024x2x1024_S1024x2048 : S1024x2048.Idx → EReal) (ix2 k n) = _
  refine (shapeCast_apply _ _ (ix2 k n) (ix3 k (⟨g.val, hg⟩ : Fin 2) j) (by
    rewrite [Shape.rowMajor_val_three, Shape.rowMajor_val_two]
    show (k.val * 2 + g.val) * 1024 + j.val = k.val * 2048 + n.val; omega)).trans ?_
  refine (transpose_apply [2, 0, 1] _ _ (ix3 k (⟨g.val, hg⟩ : Fin 2) j) (ix3 (⟨g.val, hg⟩ : Fin 2) j k) (fun b => match b with
    | ⟨0, _⟩ => rfl
    | ⟨1, _⟩ => rfl
    | ⟨2, _⟩ => rfl)).trans ?_
  exact extractStridedSlice_apply ![0, 0, 0] _ _ (ix3 (⟨g.val, hg⟩ : Fin 2) j k) (ix3 g j k) (fun a => match a with
    | ⟨0, _⟩ => by show g.val = 0 + g.val; omega
    | ⟨1, _⟩ => by show j.val = 0 + j.val; omega
    | ⟨2, _⟩ => by show k.val = 0 + k.val; omega)

/-- Row `k`, column `j` of the third gate's hidden slab is hidden weight `(2, j, k)`. -/
theorem v10_apply (c : Dev nD) (k j : Fin 1024) :
    (V m c main_v10 : S1024x1024.Idx → EReal) (ix2 k j) = ((m ((c : Thread nD τ).loc main_arg3)) : Gates) (ix3 2 j k) := by
  have hk := k.isLt; have hj := j.isLt
  refine (congrFun (V_v10 m c) (ix2 k j)).trans ?_
  show (transpose S1024x1024 [1, 0] (shapeCast S1024x1024
      (extractStridedSlice S1x1024x1024 ![2, 0, 0] ((m ((c : Thread nD τ).loc main_arg3)) : S3x1024x1024.Idx → EReal) slices_S3x1024x1024_S1x1024x1024_2_0_0)
      shapeCasts_S1x1024x1024_S1024x1024) transposes_S1024x1024_S1024x1024_1_0 : S1024x1024.Idx → EReal) (ix2 k j) = _
  refine (transpose_apply [1, 0] _ _ (ix2 k j) (ix2 j k) (fun b => match b with
    | ⟨0, _⟩ => rfl
    | ⟨1, _⟩ => rfl)).trans ?_
  refine (shapeCast_apply _ _ (ix2 j k) (ix3 (0 : Fin 1) j k) (by
    rewrite [Shape.rowMajor_val_three, Shape.rowMajor_val_two]
    show (0 * 1024 + j.val) * 1024 + k.val = j.val * 1024 + k.val; omega)).trans ?_
  exact extractStridedSlice_apply ![2, 0, 0] _ _ (ix3 (0 : Fin 1) j k) (ix3 (2 : Fin 3) j k) (fun a => match a with
    | ⟨0, _⟩ => by show 2 = 2 + 0; rfl
    | ⟨1, _⟩ => by show j.val = 0 + j.val; omega
    | ⟨2, _⟩ => by show k.val = 0 + k.val; omega)

/-! ## The windows' blocks as entries of their arrays -/

/-- The printed index maps over the 32 grid points: the row windows (input, hidden, result) take block `t`, the
    slabs and the biases their one whole block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem iblk0_apply (c : Dev nD) (t : Fin cfg0.N) (hr : 512 * t.val + 512 ≤ 16384) (p : Fin 512) (k : Fin 1024) :
    (iblk m c 0 t : Vec Ideal S512x1024 .f32) (ix2 p k) = ((m ((c : Thread nD τ).loc main_arg0)) : Rows) (ix2 (row (512 * t.val) hr p) k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 1024 + 1 * k.val = k.val; rw [e1]; omega

theorem iblk1_apply (c : Dev nD) (t : Fin cfg0.N) (hr : 512 * t.val + 512 ≤ 16384) (p : Fin 512) (k : Fin 1024) :
    (iblk m c 1 t : Vec Ideal S512x1024 .f32) (ix2 p k) = ((m ((c : Thread nD τ).loc main_arg1)) : Rows) (ix2 (row (512 * t.val) hr p) k) := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t (0 : Fin 2) * 512 + 1 * p.val = 512 * t.val + p.val; rw [e0]; omega
  | ⟨1, _⟩ => show win0_1.index t (1 : Fin 2) * 1024 + 1 * k.val = k.val; rw [e1]; omega

theorem iblk2_apply (c : Dev nD) (t : Fin cfg0.N) (k : Fin 1024) (n : Fin 3072) :
    (iblk m c 2 t : Vec Ideal S1024x3072 .bf16) (ix2 k n) = (V m c main_v2 : S1024x3072.Idx → EReal) (ix2 k n) := by
  obtain ⟨-, -, -, -, e0, e1, -⟩ := idx_facts t
  unfold iblk
  rw [View.read_apply]
  show V m c main_v2 _ = _
  congr 1
  funext a
  apply Fin.ext
  match a with
  | ⟨0, _⟩ => show win0_2.index t (0 : Fin 2) * 1024 + 1 * k.val = k.val; rw [e0]; omega
  | ⟨1, _⟩ => show win0_2.index t (1 : Fin 2) * 3072 + 1 * n.val = n.val; rw [e1]; omega

theorem iblk3_apply (c : Dev nD) (t : Fin cfg0.N) (k : Fin 1024) (n : Fin 2048) :
    (iblk m c 3 t : Vec Ideal S1024x2048 .bf16) (ix2 k n) = (V m c main_v6 : S1024x2048.Idx → EReal) (ix2 k n) := by
  obtain ⟨-, -, -, -, -, -, e0, e1, -⟩ := idx_facts t
  unfold iblk
  rw [View.read_apply]
  show V m c main_v6 _ = _
  congr 1
  funext a
  apply Fin.ext
  match a with
  | ⟨0, _⟩ => show win0_3.index t (0 : Fin 2) * 1024 + 1 * k.val = k.val; rw [e0]; omega
  | ⟨1, _⟩ => show win0_3.index t (1 : Fin 2) * 2048 + 1 * n.val = n.val; rw [e1]; omega

theorem iblk4_apply (c : Dev nD) (t : Fin cfg0.N) (k : Fin 1024) (n : Fin 1024) :
    (iblk m c 4 t : Vec Ideal S1024x1024 .bf16) (ix2 k n) = (V m c main_v10 : S1024x1024.Idx → EReal) (ix2 k n) := by
  obtain ⟨-, -, -, -, -, -, -, -, e0, e1, -⟩ := idx_facts t
  unfold iblk
  rw [View.read_apply]
  show V m c main_v10 _ = _
  congr 1
  funext a
  apply Fin.ext
  match a with
  | ⟨0, _⟩ => show win0_4.index t (0 : Fin 2) * 1024 + 1 * k.val = k.val; rw [e0]; omega
  | ⟨1, _⟩ => show win0_4.index t (1 : Fin 2) * 1024 + 1 * n.val = n.val; rw [e1]; omega

theorem iblk5_apply (c : Dev nD) (t : Fin cfg0.N) (g : Fin 3) (j : Fin 1024) :
    (iblk m c 5 t : Vec Ideal S3x1024 .f32) (ix2 g j) = ((m ((c : Thread nD τ).loc main_arg4)) : Biases) (ix2 g j) := by
  obtain ⟨-, -, -, -, -, -, -, -, -, -, e0, e1, -⟩ := idx_facts t
  unfold iblk
  rw [View.read_apply]
  show V m c main_arg4 _ = _
  rw [V_main_arg4]
  congr 1
  funext a
  apply Fin.ext
  match a with
  | ⟨0, _⟩ => show win0_5.index t (0 : Fin 2) * 3 + 1 * g.val = g.val; rw [e0]; omega
  | ⟨1, _⟩ => show win0_5.index t (1 : Fin 2) * 1024 + 1 * j.val = j.val; rw [e1]; omega

/-! ## What a point writes back, the cover, the array, the run -/

/-- The cell function of the argument arrays as launched, as the contents of the result buffer. -/
abbrev result (c : Dev nD) : Buf (Elt Ideal) ((c : Thread nD τ).loc main_v11) :=
  cell (m ((c : Thread nD τ).loc main_arg0)) (m ((c : Thread nD τ).loc main_arg1)) (m ((c : Thread nD τ).loc main_arg2)) (m ((c : Thread nD τ).loc main_arg3)) (m ((c : Thread nD τ).loc main_arg4))

/-- What point `t` writes back is block `t` (rows `512 t …`) of the cell function. -/
theorem flushed_eq (c : Dev nD) (t : Fin cfg0.N) :
    (dats m 0 c).flushed 6 t = ((cfg0.win 6).blk t).view.read (Elt Ideal) (result m c) := by
  have hN : grid0.N = 32 := N_0
  have ht : t.val < grid0.N := t.isLt
  have hr : 512 * t.val + 512 ≤ 16384 := by omega
  obtain ⟨-, -, -, -, -, -, -, -, -, -, -, -, e0, e1⟩ := idx_facts t
  rw [flushed6]
  funext y
  obtain ⟨p, q, rfl⟩ : ∃ (p : Fin 512) (q : Fin 1024), y = ix2 p q := ⟨y 0, y 1, eq_ix2 y⟩
  rw [View.read_apply]
  show out0_6 (iblk m c 0 t) (iblk m c 1 t) (iblk m c 2 t) (iblk m c 3 t) (iblk m c 4 t) (iblk m c 5 t) (ix2 p q)
    = result m c (((cfg0.win 6).blk t).view.emb (ix2 p q))
  refine (block_eq (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2)) (m ((c : Thread nD τ).loc main_arg3)) (m ((c : Thread nD τ).loc main_arg4)) (512 * t.val) hr
    (fun p k => iblk0_apply m c t hr p k) (fun p k => iblk1_apply m c t hr p k)
    (fun k g j n hn => (iblk2_apply m c t k n).trans (v2_apply m c k g j n hn))
    (fun k g j n hn => (iblk3_apply m c t k n).trans (v6_apply m c k g j n hn))
    (fun k j => (iblk4_apply m c t k j).trans (v10_apply m c k j))
    (fun g j => iblk5_apply m c t g j) p q).trans ?_
  show cell _ _ _ _ _ _ = cell _ _ _ _ _ _
  congr 1
  funext a
  apply Fin.ext
  match a with
  | ⟨0, _⟩ => show 512 * t.val + p.val = win0_6.index t (0 : Fin 2) * 512 + 1 * p.val; rw [e0]; omega
  | ⟨1, _⟩ => show q.val = win0_6.index t (1 : Fin 2) * 1024 + 1 * q.val; rw [e1]; omega

/-- An index of the result array is in point `t`'s block iff each coordinate is in the block's range on its axis. -/
theorem mem_blk6 (t : Fin cfg0.N) (i : S16384x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v11).slice (win0_6.rect t)).set ↔ _
  rw [View.set_slice_whole, Rect.mem_set_unit]
  exact Iff.rfl

/-- The result array after the run is the cell function: row `r` is written by point `r / 512`. -/
theorem final6 (c : Dev nD) : (dats m 0 c).arrAt 6 cfg0.N = result m c :=
  (dats m 0 c).arrAt_eq_of_cover 6 (result m c) (fun t _ => flushed_eq m c t) fun i => by
    have hN : grid0.N = 32 := N_0
    have h0 : (i 0).val < 16384 := (i 0).isLt
    have h1 : (i 1).val < 1024 := (i 1).isLt
    have htl : (i 0).val / 512 < grid0.N := by rw [hN]; omega
    obtain ⟨-, -, -, -, -, -, -, -, -, -, -, -, e0, e1⟩ := idx_facts ⟨(i 0).val / 512, htl⟩
    refine ⟨⟨(i 0).val / 512, htl⟩, flush0_6 _, ?_⟩
    rw [mem_blk6]
    intro a
    match a with
    | ⟨0, _⟩ =>
      show win0_6.index ⟨(i 0).val / 512, htl⟩ (0 : Fin 2) * 512 ≤ (i 0).val
        ∧ (i 0).val < win0_6.index ⟨(i 0).val / 512, htl⟩ (0 : Fin 2) * 512 + 512
      rw [e0]; show (i 0).val / 512 * 512 ≤ (i 0).val ∧ (i 0).val < (i 0).val / 512 * 512 + 512; omega
    | ⟨1, _⟩ =>
      show win0_6.index ⟨(i 0).val / 512, htl⟩ (1 : Fin 2) * 1024 ≤ (i 1).val
        ∧ (i 1).val < win0_6.index ⟨(i 0).val / 512, htl⟩ (1 : Fin 2) * 1024 + 1024
      rw [e1]; omega

/-- The kernel's run: the result array ends at the cell function of the arguments, which end as launched. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final6 m c), (h c).2⟩) (run_blocks m ρ)

end Cert.KernelIdeal.Arr

end
-- ==== Proof.RefCell.lean ====
/-
  The reference's result, read at an index, is the cell function of the argument arrays.

  The reference computes the three input projections as ONE contraction (gate, unit, row), transposes it to
  (gate, row, unit) and slices a gate out; reading that chain backwards at row `r`, unit `j` gives
  Σ_k Wi[g, j, k] · x[r, k]. Each hidden projection contracts the hidden rows with the transposed gate slice, which
  read backwards is Σ_k h[r, k] · Wh[g, j, k]. A bias row is sliced, flattened and broadcast down the rows. The
  sigmoid is spelt 1 / (1 + exp (−v)) with the literal 1.0, which IS the logistic function once 1.0 is read as 1.
  Every index identity below is a statement about coordinates of literal extents: row-major flattening of
  (r, j) over 1024 columns and splitting it again returns (r, j).
-/
import proofs.«127697_j51187420234361_2_alg».proof.Proof.Gen.ReferenceIdeal.Read
import proofs.«127697_j51187420234361_2_alg».proof.Proof.GruCell

noncomputable section

namespace Cert.ReferenceIdeal.Cell

open Cert.ReferenceIdeal Cert.ReferenceIdeal.Read Cert.GruCell Idealize.ShloMosaic Idealize.ShloMosaic.ValueIdx

variable (x0 x1 : Rows) (x2 x3 : Gates) (x4 : Biases)

/-! ## The input projections: one contraction, transposed, a gate sliced out -/

theorem inProj0 (r : Fin 16384) (j : Fin 1024) :
    val_main_v3 (F := Ideal) x0 x2 (ix2 r j) = inProj x0 x2 0 r j := by
  have hr := r.isLt; have hj := j.isLt
  rw [val_main_v3_apply, val_main_v2_apply, val_main_v1_apply, val_main_v0_apply]
  unfold inProj
  refine Finset.sum_congr rfl fun k _ => ?_
  have el : lidx_main_v0 (idx_main_v1 (idx_main_v2 (idx_main_v3 (ix2 r j)))) k = ix3 0 j k := funext fun a => Fin.ext (by
      match a with
      | ⟨0, _⟩ => rfl
      | ⟨1, _⟩ => show (r.val * 1024 + j.val) % 1024 = j.val; omega
      | ⟨2, _⟩ => rfl)
  have er : ridx_main_v0 (idx_main_v1 (idx_main_v2 (idx_main_v3 (ix2 r j)))) k = ix2 r k := funext fun a => Fin.ext (by
      match a with
      | ⟨0, _⟩ => show (r.val * 1024 + j.val) / 1024 % 16384 = r.val; omega
      | ⟨1, _⟩ => rfl)
  rw [el, er]

theorem inProj1 (r : Fin 16384) (j : Fin 1024) :
    val_main_v21 (F := Ideal) x0 x2 (ix2 r j) = inProj x0 x2 1 r j := by
  have hr := r.isLt; have hj := j.isLt
  rw [val_main_v21_apply, val_main_v20_apply, val_main_v1_apply, val_main_v0_apply]
  unfold inProj
  refine Finset.sum_congr rfl fun k _ => ?_
  have el : lidx_main_v0 (idx_main_v1 (idx_main_v20 (idx_main_v21 (ix2 r j)))) k = ix3 1 j k := funext fun a => Fin.ext (by
      match a with
      | ⟨0, _⟩ => rfl
      | ⟨1, _⟩ => show (r.val * 1024 + j.val) % 1024 = j.val; omega
      | ⟨2, _⟩ => rfl)
  have er : ridx_main_v0 (idx_main_v1 (idx_main_v20 (idx_main_v21 (ix2 r j)))) k = ix2 r k := funext fun a => Fin.ext (by
      match a with
      | ⟨0, _⟩ => show (r.val * 1024 + j.val) / 1024 % 16384 = r.val; omega
      | ⟨1, _⟩ => rfl)
  rw [el, er]

theorem inProj2 (r : Fin 16384) (j : Fin 1024) :
    val_main_v39 (F := Ideal) x0 x2 (ix2 r j) = inProj x0 x2 2 r j := by
  have hr := r.isLt; have hj := j.isLt
  rw [val_main_v39_apply, val_main_v38_apply, val_main_v1_apply, val_main_v0_apply]
  unfold inProj
  refine Finset.sum_congr rfl fun k _ => ?_
  have el : lidx_main_v0 (idx_main_v1 (idx_main_v38 (idx_main_v39 (ix2 r j)))) k = ix3 2 j k := funext fun a => Fin.ext (by
      match a with
      | ⟨0, _⟩ => rfl
      | ⟨1, _⟩ => show (r.val * 1024 + j.val) % 1024 = j.val; omega
      | ⟨2, _⟩ => rfl)
  have er : ridx_main_v0 (idx_main_v1 (idx_main_v38 (idx_main_v39 (ix2 r j)))) k = ix2 r k := funext fun a => Fin.ext (by
      match a with
      | ⟨0, _⟩ => show (r.val * 1024 + j.val) / 1024 % 16384 = r.val; omega
      | ⟨1, _⟩ => rfl)
  rw [el, er]

/-! ## A gate's hidden weights: sliced, flattened to a matrix, transposed -/

theorem hidW0 (j k : Fin 1024) : val_main_v6 (F := Ideal) x3 (ix2 k j) = x3 (ix3 0 j k) := by
  have hj := j.isLt; have hk := k.isLt
  rw [val_main_v6_apply, val_main_v5_apply, val_main_v4_apply]
  refine congrArg x3 ?_
  exact funext fun a => Fin.ext (by
      match a with
      | ⟨0, _⟩ => rfl
      | ⟨1, _⟩ => show (j.val * 1024 + k.val) / 1024 % 1024 = j.val; omega
      | ⟨2, _⟩ => show (j.val * 1024 + k.val) % 1024 = k.val; omega)

theorem hidW1 (j k : Fin 1024) : val_main_v24 (F := Ideal) x3 (ix2 k j) = x3 (ix3 1 j k) := by
  have hj := j.isLt; have hk := k.isLt
  rw [val_main_v24_apply, val_main_v23_apply, val_main_v22_apply]
  refine congrArg x3 ?_
  exact funext fun a => Fin.ext (by
      match a with
      | ⟨0, _⟩ => rfl
      | ⟨1, _⟩ => show (j.val * 1024 + k.val) / 1024 % 1024 = j.val; omega
      | ⟨2, _⟩ => show (j.val * 1024 + k.val) % 1024 = k.val; omega)

theorem hidW2 (j k : Fin 1024) : val_main_v43 (F := Ideal) x3 (ix2 k j) = x3 (ix3 2 j k) := by
  have hj := j.isLt; have hk := k.isLt
  rw [val_main_v43_apply, val_main_v42_apply, val_main_v41_apply]
  refine congrArg x3 ?_
  exact funext fun a => Fin.ext (by
      match a with
      | ⟨0, _⟩ => rfl
      | ⟨1, _⟩ => show (j.val * 1024 + k.val) / 1024 % 1024 = j.val; omega
      | ⟨2, _⟩ => show (j.val * 1024 + k.val) % 1024 = k.val; omega)

/-! ## The hidden projections of the two sigmoid gates -/

theorem hidProj0 (r : Fin 16384) (j : Fin 1024) :
    val_main_v7 (F := Ideal) x1 x3 (ix2 r j) = hidProj x1 x3 0 r j := by
  rw [val_main_v7_apply]
  unfold hidProj
  refine Finset.sum_congr rfl fun k _ => ?_
  have el : lidx_main_v7 (ix2 r j) k = ix2 r k := funext fun a => Fin.ext (by
      match a with
      | ⟨0, _⟩ => rfl
      | ⟨1, _⟩ => rfl)
  have er : ridx_main_v7 (ix2 r j) k = ix2 k j := funext fun a => Fin.ext (by
      match a with
      | ⟨0, _⟩ => rfl
      | ⟨1, _⟩ => rfl)
  rw [el, er, hidW0]

theorem hidProj1 (r : Fin 16384) (j : Fin 1024) :
    val_main_v25 (F := Ideal) x1 x3 (ix2 r j) = hidProj x1 x3 1 r j := by
  rw [val_main_v25_apply]
  unfold hidProj
  refine Finset.sum_congr rfl fun k _ => ?_
  have el : lidx_main_v25 (ix2 r j) k = ix2 r k := funext fun a => Fin.ext (by
      match a with
      | ⟨0, _⟩ => rfl
      | ⟨1, _⟩ => rfl)
  have er : ridx_main_v25 (ix2 r j) k = ix2 k j := funext fun a => Fin.ext (by
      match a with
      | ⟨0, _⟩ => rfl
      | ⟨1, _⟩ => rfl)
  rw [el, er, hidW1]

/-! ## The bias rows: sliced, flattened, broadcast down the rows -/

theorem bias0 (r : Fin 16384) (j : Fin 1024) : val_main_v12 (F := Ideal) x4 (ix2 r j) = x4 (ix2 0 j) := by
  have hj := j.isLt
  rw [val_main_v12_apply, val_main_v11_apply, val_main_v10_apply, val_main_v9_apply]
  refine congrArg x4 ?_
  exact funext fun a => Fin.ext (by
      match a with
      | ⟨0, _⟩ => rfl
      | ⟨1, _⟩ => show j.val % 1024 = j.val; omega)

theorem bias1 (r : Fin 16384) (j : Fin 1024) : val_main_v30 (F := Ideal) x4 (ix2 r j) = x4 (ix2 1 j) := by
  have hj := j.isLt
  rw [val_main_v30_apply, val_main_v29_apply, val_main_v28_apply, val_main_v27_apply]
  refine congrArg x4 ?_
  exact funext fun a => Fin.ext (by
      match a with
      | ⟨0, _⟩ => rfl
      | ⟨1, _⟩ => show j.val % 1024 = j.val; omega)

theorem bias2 (r : Fin 16384) (j : Fin 1024) : val_main_v49 (F := Ideal) x4 (ix2 r j) = x4 (ix2 2 j) := by
  have hj := j.isLt
  rw [val_main_v49_apply, val_main_v48_apply, val_main_v47_apply, val_main_v46_apply]
  refine congrArg x4 ?_
  exact funext fun a => Fin.ext (by
      match a with
      | ⟨0, _⟩ => rfl
      | ⟨1, _⟩ => show j.val % 1024 = j.val; omega)

/-! ## The two sigmoid gates: 1 / (1 + exp (−v)) with the literal one is the logistic function -/

theorem gate0 (r : Fin 16384) (j : Fin 1024) :
    val_main_v19 (F := Ideal) x0 x1 x2 x3 x4 (ix2 r j) = gate x0 x1 x2 x3 x4 0 r j := by
  rw [val_main_v19_apply, val_main_v18_apply, val_main_cst_0_apply, val_main_v17_apply, val_main_v16_apply,
    val_main_cst_apply, val_main_v15_apply, val_main_v14_apply, val_main_v13_apply, val_main_v8_apply,
    inProj0, hidProj0, bias0]
  unfold gate
  show Ideal.div (Ideal.ofBits .f32 0x3F800000#32) (Ideal.ofBits .f32 0x3F800000#32 + Ideal.exp (-(_))) = _
  rw [ofBits_one]
  rfl

theorem gate1 (r : Fin 16384) (j : Fin 1024) :
    val_main_v37 (F := Ideal) x0 x1 x2 x3 x4 (ix2 r j) = gate x0 x1 x2 x3 x4 1 r j := by
  rw [val_main_v37_apply, val_main_v36_apply, val_main_cst_2_apply, val_main_v35_apply, val_main_v34_apply,
    val_main_cst_1_apply, val_main_v33_apply, val_main_v32_apply, val_main_v31_apply, val_main_v26_apply,
    inProj1, hidProj1, bias1]
  unfold gate
  show Ideal.div (Ideal.ofBits .f32 0x3F800000#32) (Ideal.ofBits .f32 0x3F800000#32 + Ideal.exp (-(_))) = _
  rw [ofBits_one]
  rfl

/-! ## The candidate state and the blend -/

theorem cand_eq (r : Fin 16384) (j : Fin 1024) :
    val_main_v51 (F := Ideal) x0 x1 x2 x3 x4 (ix2 r j) = cand x0 x1 x2 x3 x4 r j := by
  rw [val_main_v51_apply, val_main_call0_v0_apply, val_main_call0_cst_apply, val_main_v50_apply,
    val_main_v45_apply, inProj2, bias2, val_main_v44_apply]
  unfold cand
  have hs : (∑ k : Fin 1024, val_main_v40 (F := Ideal) x0 x1 x2 x3 x4 (lidx_main_v44 (ix2 r j) k)
        * val_main_v43 (F := Ideal) x3 (ridx_main_v44 (ix2 r j) k))
      = ∑ k : Fin 1024, (x1 (ix2 r k) * gate x0 x1 x2 x3 x4 1 r k) * x3 (ix3 2 j k) := by
    refine Finset.sum_congr rfl fun k _ => ?_
    have el : lidx_main_v44 (ix2 r j) k = ix2 r k := funext fun a => Fin.ext (by
      match a with
      | ⟨0, _⟩ => rfl
      | ⟨1, _⟩ => rfl)
    have er : ridx_main_v44 (ix2 r j) k = ix2 k j := funext fun a => Fin.ext (by
      match a with
      | ⟨0, _⟩ => rfl
      | ⟨1, _⟩ => rfl)
    rw [el, er, hidW2, val_main_v40_apply, gate1]
    rfl
  rw [hs]
  rfl

/-- The reference's last stage is the cell function of its five arguments. -/
theorem result_eq : val_main_v56 (F := Ideal) x0 x1 x2 x3 x4 = cell x0 x1 x2 x3 x4 := by
  funext i
  obtain ⟨r, j, rfl⟩ : ∃ (r : Fin 16384) (j : Fin 1024), i = ix2 r j := ⟨i 0, i 1, eq_ix2 i⟩
  rw [val_main_v56_apply, val_main_v54_apply, val_main_v53_apply, val_main_v52_apply, val_main_cst_3_apply,
    val_main_v55_apply, gate0, cand_eq]
  rfl

end Cert.ReferenceIdeal.Cell

end
-- ==== Proof.lean ====
/-
  A ReLU-GRU cell update on 16384 rows of 1024 features, computed by a kernel in 32 blocks of 512 rows over fused,
  pre-transposed weight slabs, against the plain array program: equal as extended reals, index by index.

  Both programs compute, for batch row r and hidden unit j,
      z = logistic ((Wi₀·x + Wh₀·h) + b₀),   s = logistic ((Wi₁·x + Wh₁·h) + b₁),
      n = max ((Wi₂·x + Wh₂·(h ∘ s)) + b₂) 0,   out = (1 − z)·n + z·h
  (Proof/GruCell.lean states it as one function `cell` of the five arrays). The reference reads it off one contraction per
  projection (Proof/RefCell.lean); the kernel multiplies each 512-row block by slabs in which the gate matrices sit
  transposed and side by side, slices the gates' columns out and blends (Proof/KernelBlock.lean, Proof/KernelCell.lean), and
  its 32 blocks tile the result (Proof/KernelArray.lean). The two agree term by term: every sum runs over the same 1024
  positions with the same factors, the only rearrangement being the order of the two factors of a product, so nothing
  depends on the entries being finite. The change of float format on the way into a matmul is the identity on extended
  reals, and no operation of the kernel was rewritten for its reading over the extended reals, so that reading is the
  kernel's own text.

  The frames of the two kernel programs are the generated ones; the reference's frame is its generated run with the result
  dropped.
-/
import proofs.«127697_j51187420234361_2_alg».proof.Defs
import proofs.«127697_j51187420234361_2_alg».proof.Proof.Gen.Kernel
import proofs.«127697_j51187420234361_2_alg».proof.Proof.Gen.Kernel.Skeleton
import proofs.«127697_j51187420234361_2_alg».proof.Proof.Gen.Kernel.Launch
import proofs.«127697_j51187420234361_2_alg».proof.Proof.Gen.Kernel.Points
import proofs.«127697_j51187420234361_2_alg».proof.Proof.Gen.Kernel.Frame
import proofs.«127697_j51187420234361_2_alg».proof.Proof.Gen.KernelIdeal
import proofs.«127697_j51187420234361_2_alg».proof.Proof.Gen.KernelIdeal.Skeleton
import proofs.«127697_j51187420234361_2_alg».proof.Proof.Gen.KernelIdeal.Launch
import proofs.«127697_j51187420234361_2_alg».proof.Proof.Gen.KernelIdeal.Points
import proofs.«127697_j51187420234361_2_alg».proof.Proof.Gen.KernelIdeal.Frame
import proofs.«127697_j51187420234361_2_alg».proof.Proof.Gen.ReferenceIdeal
import proofs.«127697_j51187420234361_2_alg».proof.Proof.Gen.Pre_finite_inputs
import proofs.«127697_j51187420234361_2_alg».proof.Proof.Gen.KernelIdeal.Value
import proofs.«127697_j51187420234361_2_alg».proof.Proof.Gen.ReferenceIdeal.Run
import proofs.«127697_j51187420234361_2_alg».proof.Proof.Gen.ReferenceIdeal.Read
import proofs.«127697_j51187420234361_2_alg».proof.Proof.KernelArray
import proofs.«127697_j51187420234361_2_alg».proof.Proof.RefCell
import Idealize.ShloMosaic.Adequacy
import Idealize.ShloMosaic.Init

noncomputable section

namespace Cert.Proof

open Idealize.ShloMosaic Idealize.SL.Sem

/-- The kernel as printed runs, faults nowhere and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories that agree on the five arguments both programs end with the cell function of those arguments in their
    result array: the kernel by its 32 blocks, the reference by its last stage. -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.ReferenceIdeal.Cell.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
